-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x512x2 : Shape := ⟨3, ![4096, 512, 2]⟩
abbrev S2x256x1x8 : Shape := ⟨4, ![2, 256, 1, 8]⟩
abbrev S4096x1x1x1 : Shape := ⟨4, ![4096, 1, 1, 1]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S2x256x1x8 : S_.BroadcastsInDim S2x256x1x8 (![] : Fin 0 → Fin S2x256x1x8.rank)
  reducesTo_S2x256x1x8_S_d0_1_2_3 : S2x256x1x8.ReducesTo [0, 1, 2, 3] S_
  bcast_S_S4096x1x1x1 : S_.BroadcastsInDim S4096x1x1x1 (![] : Fin 0 → Fin S4096x1x1x1.rank)
  reducesTo_S4096x1x1x1_S_d0_1_2_3 : S4096x1x1x1.ReducesTo [0, 1, 2, 3] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x4096x4096 .f32) (main_arg1 : IVec S4096x512x2 32) (main_arg2 : FVec F S2x256x1x8 .f32) (main_arg3 : FVec F S4096x1x1x1 .f32) (main_arg4 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S2x256x1x8 .f32 := Host.absf main_arg2
  let main_cst_0 : FVec F S_ .f32 := constant S_ .f32 0x7F800000#32
  let main_v5 : FVec F S2x256x1x8 .f32 := broadcastInDim S2x256x1x8 ![] bcast_S_S2x256x1x8 main_cst_0
  let main_v6 : IVec S2x256x1x8 1 := cmpf .olt main_v4 main_v5
  let main_c_1 : IVec S_ 1 := constantI S_ 1 1#1
  let main_v7 : IVec S_ 1 := (fun x v => Host.reduce IntOp.andi x v reducesTo_S2x256x1x8_S_d0_1_2_3 h_S_) main_v6 main_c_1
  let main_v8 : IVec S_ 1 := andi main_v3 main_v7
  let main_v9 : FVec F S4096x1x1x1 .f32 := Host.absf main_arg3
  let main_cst_2 : FVec F S_ .f32 := constant S_ .f32 0x7F800000#32
  let main_v10 : FVec F S4096x1x1x1 .f32 := broadcastInDim S4096x1x1x1 ![] bcast_S_S4096x1x1x1 main_cst_2
  let main_v11 : IVec S4096x1x1x1 1 := cmpf .olt main_v9 main_v10
  let main_c_3 : IVec S_ 1 := constantI S_ 1 1#1
  let main_v12 : IVec S_ 1 := (fun x v => Host.reduce IntOp.andi x v reducesTo_S4096x1x1x1_S_d0_1_2_3 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x4096x4096 : Shape := ⟨3, ![4, 4096, 4096]⟩
abbrev S4096x512x2 : Shape := ⟨3, ![4096, 512, 2]⟩
abbrev S2x256x1x8 : Shape := ⟨4, ![2, 256, 1, 8]⟩
abbrev S4096x1x1x1 : Shape := ⟨4, ![4096, 1, 1, 1]⟩
abbrev S4096 : Shape := ⟨1, ![4096]⟩
abbrev S1x256x1x8 : Shape := ⟨4, ![1, 256, 1, 8]⟩
abbrev S256x1x8 : Shape := ⟨3, ![256, 1, 8]⟩
abbrev S4096x512x1 : Shape := ⟨3, ![4096, 512, 1]⟩
abbrev S4096x512 : Shape := ⟨2, ![4096, 512]⟩
abbrev S_ : Shape := ⟨0, ![]⟩
abbrev S4096x512x1x8 : Shape := ⟨4, ![4096, 512, 1, 8]⟩
abbrev S512x8x4096x1 : Shape := ⟨4, ![512, 8, 4096, 1]⟩
abbrev S4096x4096 : Shape := ⟨2, ![4096, 4096]⟩
abbrev S16384x4096 : Shape := ⟨2, ![16384, 4096]⟩
abbrev S1x4096 : Shape := ⟨2, ![1, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 42
  | .vmem => 8
  | .smem => 0
  | _ => 0

abbrev bufTy : (tb : Table) → Fin (tcTables nBuf tb) → BufTy
  | .hbm, ⟨0, _⟩ => ⟨S4x4096x4096, .f32⟩
  | .hbm, ⟨1, _⟩ => ⟨S4096x512x2, .i32⟩
  | .hbm, ⟨2, _⟩ => ⟨S2x256x1x8, .f32⟩
  | .hbm, ⟨3, _⟩ => ⟨S4096x1x1x1, .f32⟩
  | .hbm, ⟨4, _⟩ => ⟨S4096, .f32⟩
  | .hbm, ⟨5, _⟩ => ⟨S1x256x1x8, .f32⟩
  | .hbm, ⟨6, _⟩ => ⟨S256x1x8, .f32⟩
  | .hbm, ⟨7, _⟩ => ⟨S4096x512x1, .i32⟩
  | .hbm, ⟨8, _⟩ => ⟨S4096x512, .i32⟩
  | .hbm, ⟨9, _⟩ => ⟨S_, .i32⟩
  | .hbm, ⟨10, _⟩ => ⟨S4096x512, .i32⟩
  | .hbm, ⟨11, _⟩ => ⟨S4096x512, .i1⟩
  | .hbm, ⟨12, _⟩ => ⟨S_, .i32⟩
  | .hbm, ⟨13, _⟩ => ⟨S4096x512, .i32⟩
  | .hbm, ⟨14, _⟩ => ⟨S4096x512, .i32⟩
  | .hbm, ⟨15, _⟩ => ⟨S4096x512, .i32⟩
  | .hbm, ⟨16, _⟩ => ⟨S4096x512x1, .i32⟩
  | .hbm, ⟨17, _⟩ => ⟨S4096x512x1x8, .f32⟩
  | .hbm, ⟨18, _⟩ => ⟨S1x256x1x8, .f32⟩
  | .hbm, ⟨19, _⟩ => ⟨S256x1x8, .f32⟩
  | .hbm, ⟨20, _⟩ => ⟨S4096x512x1, .i32⟩
  | .hbm, ⟨21, _⟩ => ⟨S4096x512, .i32⟩
  | .hbm, ⟨22, _⟩ => ⟨S_, .i32⟩
  | .hbm, ⟨23, _⟩ => ⟨S4096x512, .i32⟩
  | .hbm, ⟨24, _⟩ => ⟨S4096x512, .i1⟩
  | .hbm, ⟨25, _⟩ => ⟨S_, .i32⟩
  | .hbm, ⟨26, _⟩ => ⟨S4096x512, .i32⟩
  | .hbm, ⟨27, _⟩ => ⟨S4096x512, .i32⟩
  | .hbm, ⟨28, _⟩ => ⟨S4096x512, .i32⟩
  | .hbm, ⟨29, _⟩ => ⟨S4096x512x1, .i32⟩
  | .hbm, ⟨30, _⟩ => ⟨S4096x512x1x8, .f32⟩
  | .hbm, ⟨31, _⟩ => ⟨S4096x512x1x8, .f32⟩
  | .hbm, ⟨32, _⟩ => ⟨S4096x512x1x8, .f32⟩
  | .hbm, ⟨33, _⟩ => ⟨S4096x512x1x8, .f32⟩
  | .hbm, ⟨34, _⟩ => ⟨S512x8x4096x1, .f32⟩
  | .hbm, ⟨35, _⟩ => ⟨S4096x4096, .f32⟩
  | .hbm, ⟨36, _⟩ => ⟨S4096x4096, .bf16⟩
  | .hbm, ⟨37, _⟩ => ⟨S16384x4096, .f32⟩
  | .hbm, ⟨38, _⟩ => ⟨S16384x4096, .bf16⟩
  | .hbm, ⟨39, _⟩ => ⟨S1x4096, .f32⟩
  | .hbm, ⟨40, _⟩ => ⟨S16384x4096, .f32⟩
  | .hbm, ⟨41, _⟩ => ⟨S4x4096x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  slices_S2x256x1x8_S1x256x1x8_0_0_0_0 : S2x256x1x8.Slices ![0, 0, 0, 0] S1x256x1x8
  shapeCasts_S1x256x1x8_S256x1x8 : S1x256x1x8.ShapeCasts S256x1x8
  slices_S4096x512x2_S4096x512x1_0_0_0 : S4096x512x2.Slices ![0, 0, 0] S4096x512x1
  shapeCasts_S4096x512x1_S4096x512 : S4096x512x1.ShapeCasts S4096x512
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  slices_S2x256x1x8_S1x256x1x8_1_0_0_0 : S2x256x1x8.Slices ![1, 0, 0, 0] S1x256x1x8
  slices_S4096x512x2_S4096x512x1_0_0_1 : S4096x512x2.Slices ![0, 0, 1] S4096x512x1
  bcast_S4096x1x1x1_S4096x512x1x8_0_1_2_3 : S4096x1x1x1.BroadcastsInDim S4096x512x1x8 (![0, 1, 2, 3] : Fin 4 → Fin S4096x512x1x8.rank)
  transposes_S4096x512x1x8_S512x8x4096x1_1_3_0_2 : S4096x512x1x8.Transposes [1, 3, 0, 2] S512x8x4096x1
  shapeCasts_S512x8x4096x1_S4096x4096 : S512x8x4096x1.ShapeCasts S4096x4096
  bitsLt_bf16_f32 : FTy.bits .bf16 < FTy.bits .f32
  shapeCasts_S4x4096x4096_S16384x4096 : S4x4096x4096.ShapeCasts S16384x4096
  shapeCasts_S4096_S1x4096 : S4096.ShapeCasts S1x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S16384x4096_S4x4096x4096 : S16384x4096.ShapeCasts S4x4096x4096
  gather_S256x1x8_S4096x512x1_S4096x512x1x8_23_0_n_n_0_2_118_wf : GatherDims.WF S256x1x8 S4096x512x1 S4096x512x1x8 [2, 3] [0] [] [0] [] 2 ![1, 1, 8]
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x4096.size a
  hwx0_0 : ∀ i : grid0.Coords, EltTy.bits .bf16 = 32 ∨ (Rect.block (s := S16384x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S16384x4096.size a
  hwx0_3 : ∀ i : grid0.Coords, EltTy.bits .f32 = 32 ∨ (Rect.block (s := S16384x4096) S2048x1024.size (cc0_transform_3 i) (hinb0_3 i)).WholeWords (EltTy.packing .f32)

variable [Facts₀]

def gather_S256x1x8_S4096x512x1_S4096x512x1x8_23_0_n_n_0_2_118 : GatherDims S256x1x8 S4096x512x1 S4096x512x1x8 where
  offsetDims := [2, 3]
  collapsedSliceDims := [0]
  operandBatchingDims := []
  startIndicesBatchingDims := []
  startIndexMap := [0]
  indexVectorDim := 2
  sliceSizes := ![1, 1, 8]
  wf := gather_S256x1x8_S4096x512x1_S4096x512x1x8_23_0_n_n_0_2_118_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v29) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096x512x2 : Shape := ⟨3, ![4096, 512, 2]⟩
abbrev S2x256x1x8 : Shape := ⟨4, ![2, 256, 1, 8]⟩
abbrev S4096x1x1x1 : Shape := ⟨4, ![4096, 1, 1, 1]⟩
abbrev S4096 : Shape := ⟨1, ![4096]⟩
abbrev S1x256x1x8 : Shape := ⟨4, ![1, 256, 1, 8]⟩
abbrev S256x1x8 : Shape := ⟨3, ![256, 1, 8]⟩
abbrev S4096x512x1 : Shape := ⟨3, ![4096, 512, 1]⟩
abbrev S4096x512 : Shape := ⟨2, ![4096, 512]⟩
abbrev S_ : Shape := ⟨0, ![]⟩
abbrev S4096x512x1x8 : Shape := ⟨4, ![4096, 512, 1, 8]⟩
abbrev S4096x1x512x8 : Shape := ⟨4, ![4096, 1, 512, 8]⟩
abbrev S4096x4096 : Shape := ⟨2, ![4096, 4096]⟩
abbrev S1x1x4096 : Shape := ⟨3, ![1, 1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x512x2, .i32⟩
  | .hbm, ⟨2, _⟩ => ⟨S2x256x1x8, .f32⟩
  | .hbm, ⟨3, _⟩ => ⟨S4096x1x1x1, .f32⟩
  | .hbm, ⟨4, _⟩ => ⟨S4096, .f32⟩
  | .hbm, ⟨5, _⟩ => ⟨S1x256x1x8, .f32⟩
  | .hbm, ⟨6, _⟩ => ⟨S256x1x8, .f32⟩
  | .hbm, ⟨7, _⟩ => ⟨S4096x512x1, .i32⟩
  | .hbm, ⟨8, _⟩ => ⟨S4096x512, .i32⟩
  | .hbm, ⟨9, _⟩ => ⟨S_, .i32⟩
  | .hbm, ⟨10, _⟩ => ⟨S4096x512, .i32⟩
  | .hbm, ⟨11, _⟩ => ⟨S4096x512, .i1⟩
  | .hbm, ⟨12, _⟩ => ⟨S_, .i32⟩
  | .hbm, ⟨13, _⟩ => ⟨S4096x512, .i32⟩
  | .hbm, ⟨14, _⟩ => ⟨S4096x512, .i32⟩
  | .hbm, ⟨15, _⟩ => ⟨S4096x512, .i32⟩
  | .hbm, ⟨16, _⟩ => ⟨S4096x512x1, .i32⟩
  | .hbm, ⟨17, _⟩ => ⟨S4096x512x1x8, .f32⟩
  | .hbm, ⟨18, _⟩ => ⟨S1x256x1x8, .f32⟩
  | .hbm, ⟨19, _⟩ => ⟨S256x1x8, .f32⟩
  | .hbm, ⟨20, _⟩ => ⟨S4096x512x1, .i32⟩
  | .hbm, ⟨21, _⟩ => ⟨S4096x512, .i32⟩
  | .hbm, ⟨22, _⟩ => ⟨S_, .i32⟩
  | .hbm, ⟨23, _⟩ => ⟨S4096x512, .i32⟩
  | .hbm, ⟨24, _⟩ => ⟨S4096x512, .i1⟩
  | .hbm, ⟨25, _⟩ => ⟨S_, .i32⟩
  | .hbm, ⟨26, _⟩ => ⟨S4096x512, .i32⟩
  | .hbm, ⟨27, _⟩ => ⟨S4096x512, .i32⟩
  | .hbm, ⟨28, _⟩ => ⟨S4096x512, .i32⟩
  | .hbm, ⟨29, _⟩ => ⟨S4096x512x1, .i32⟩
  | .hbm, ⟨30, _⟩ => ⟨S4096x512x1x8, .f32⟩
  | .hbm, ⟨31, _⟩ => ⟨S4096x512x1x8, .f32⟩
  | .hbm, ⟨32, _⟩ => ⟨S4096x512x1x8, .f32⟩
  | .hbm, ⟨33, _⟩ => ⟨S4096x512x1x8, .f32⟩
  | .hbm, ⟨34, _⟩ => ⟨S4096x1x512x8, .f32⟩
  | .hbm, ⟨35, _⟩ => ⟨S4096x4096, .f32⟩
  | .hbm, ⟨36, _⟩ => ⟨S4x4096x4096, .f32⟩
  | .hbm, ⟨37, _⟩ => ⟨S1x1x4096, .f32⟩
  | .hbm, ⟨38, _⟩ => ⟨S4x4096x4096, .f32⟩
  | .hbm, ⟨39, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  slices_S2x256x1x8_S1x256x1x8_0_0_0_0 : S2x256x1x8.Slices ![0, 0, 0, 0] S1x256x1x8
  shapeCasts_S1x256x1x8_S256x1x8 : S1x256x1x8.ShapeCasts S256x1x8
  slices_S4096x512x2_S4096x512x1_0_0_0 : S4096x512x2.Slices ![0, 0, 0] S4096x512x1
  shapeCasts_S4096x512x1_S4096x512 : S4096x512x1.ShapeCasts S4096x512
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  slices_S2x256x1x8_S1x256x1x8_1_0_0_0 : S2x256x1x8.Slices ![1, 0, 0, 0] S1x256x1x8
  slices_S4096x512x2_S4096x512x1_0_0_1 : S4096x512x2.Slices ![0, 0, 1] S4096x512x1
  bcast_S4096x1x1x1_S4096x512x1x8_0_1_2_3 : S4096x1x1x1.BroadcastsInDim S4096x512x1x8 (![0, 1, 2, 3] : Fin 4 → Fin S4096x512x1x8.rank)
  transposes_S4096x512x1x8_S4096x1x512x8_0_2_1_3 : S4096x512x1x8.Transposes [0, 2, 1, 3] S4096x1x512x8
  shapeCasts_S4096x1x512x8_S4096x4096 : S4096x1x512x8.ShapeCasts S4096x4096
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  gather_S256x1x8_S4096x512x1_S4096x512x1x8_23_0_n_n_0_2_118_wf : GatherDims.WF S256x1x8 S4096x512x1 S4096x512x1x8 [2, 3] [0] [] [0] [] 2 ![1, 1, 8]
  dot_S4x4096x4096_S4096x4096_S4x4096x4096_2_1_01_0_n_n_wf : DotDims.WF S4x4096x4096 S4096x4096 S4x4096x4096 [2] [1] [0, 1] [0] [] []

variable [Facts₀]

def gather_S256x1x8_S4096x512x1_S4096x512x1x8_23_0_n_n_0_2_118 : GatherDims S256x1x8 S4096x512x1 S4096x512x1x8 where
  offsetDims := [2, 3]
  collapsedSliceDims := [0]
  operandBatchingDims := []
  startIndicesBatchingDims := []
  startIndexMap := [0]
  indexVectorDim := 2
  sliceSizes := ![1, 1, 8]
  wf := gather_S256x1x8_S4096x512x1_S4096x512x1x8_23_0_n_n_0_2_118_wf
def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.KernelPieces.lean ====
/-
  What the kernel body leaves in the output block's staging buffer, in each of its two cases, as a value.

  The body first, at the first step of the contraction only, overwrites the whole output block with the bias row
  repeated down the rows; then, at every step, it reads the whole output block back, adds to it the product of the
  current [2048,1024] block of the left operand and [1024,1024] block of the right operand, and writes the whole block.
  So at a first step the block ends as   acc(bias rows, left, right)   and at a later step, where it held  prev,
  as   acc(prev, left, right),   acc being the body's one accumulate-and-store expression.
-/
import proofs.«176210_j52999896433085_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offset of a whole-block access. -/
theorem zero_offsets : (![0, 0] : Fin 2 → Nat) = fun _ => 0 := funext fun a => by fin_cases a <;> rfl

/-- A later step of the contraction: over a block holding `prev` the body leaves `prev` plus the product of the two
    input blocks — its one store covers the block, and its loads read the whole buffers. -/
theorem later_step (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S2048x1024 .f32) (h6 : a6.IsWhole) (hc : ¬cond0_0 i)
    (x0 : Vec F S2048x1024 .bf16) (x1 : Vec F S1024x1024 .bf16) (x2 : Vec F S1x1024 .f32) (prev : Vec F S2048x1024 .f32) :
    out0_B_3 c i a3 h3 a4 h4 a5 h5 a6 h6 hc x0 x1 x2 prev = k0_pay2 prev x0 x1 := by
  unfold out0_B_3
  rw [View.read_writes_eq_canon _ _ _ (cover0_B_3 c i a3 h3 a4 h4 a5 h5 a6 h6 hc x0 x1 x2 prev)]
  unfold kernelRun0_B
  dsimp only
  rw [View.canon_unit_zero zero_offsets]
  simp only [View.readAt_eq_ld, h6.read_unread, h3.read_unread, h4.read_unread,
    View.ld_unit_zero (S := S2048x1024) zero_offsets, View.ld_unit_zero (S := S1024x1024) zero_offsets]

/-- A first step of the contraction: the body stores the bias rows over the whole block, reads them back, and leaves
    them plus the product of the two input blocks. -/
theorem first_step (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S2048x1024 .f32) (h6 : a6.IsWhole) (hc : cond0_0 i)
    (x0 : Vec F S2048x1024 .bf16) (x1 : Vec F S1024x1024 .bf16) (x2 : Vec F S1x1024 .f32) :
    out0_A_3 c i a3 h3 a4 h4 a5 h5 a6 h6 hc x0 x1 x2 = k0_pay2 (k0_pay1 x2) x0 x1 := by
  unfold out0_A_3
  rw [View.read_writes_eq_canon _ _ _ (cover0_A_3 c i a3 h3 a4 h4 a5 h5 a6 h6 hc x0 x1 x2)]
  unfold kernelRun0_A
  dsimp only
  sl_unfold_words
  rw [View.canon_cons_unit_zero (S := S2048x1024) zero_offsets, View.readCov_unit_zero (S := S2048x1024) _ zero_offsets]
  simp only [View.readAt_eq_ld, h3.read_unread, h4.read_unread, h5.read_unread,
    View.ld_unit_zero (S := S2048x1024) zero_offsets, View.ld_unit_zero (S := S1024x1024) zero_offsets,
    View.ld_unit_zero (S := S1x1024) zero_offsets]

end Cert.KernelIdeal.Pieces

end
-- ==== Proof.LibRowOps.lean ====
/-
  General reads at an index, at the ideal values, used by the row-local stages of a network: a matrix product
  accumulated into zero, a column broadcast across the columns, and the select that spells the exponential linear unit.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.RowLib

open Idealize.ShloMosaic Idealize.ShloMosaic.ValueIdx

/-- A dot's dimension numbers that contract the left operand's columns with the right operand's rows, with no batch
    axis, are the plain m×k by k×n product's. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The plain product of an m×k by a k×n matrix accumulated into the zero splat, read at (a, b), is the sum over the
    contracted coordinate of the products of the entries: row a of the left operand against column b of the right. -/
theorem matmul_plain_zero_ix2 {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "h is above z" is the `if` on the order of the extended reals. -/
theorem select_cmpf_ogt {α : Type} (h z : Ideal .f32) (A B : α) :
    Scalar.select (FloatOps.cmpf .ogt h z) A B = if z < h then A else B := by
  show Scalar.select (Ideal.cmp .ogt h z) A B = _
  unfold Ideal.cmp Scalar.select
  by_cases hh : z < h <;> simp [hh]

end Cert.RowLib

end
-- ==== Proof.KernelPayload.lean ====
/-
  The body's two stored values read at one entry, at the ideal values (extended reals, exact operations).

  The bias rows: a [1,1024] row repeated down 2048 rows reads, at (r, q), the row's entry q.
  The accumulate-and-store expression: at (r, q) it is the previous entry plus the sum over the 1024 contracted
  positions j of  left(r, j) · right(j, q)  — the block product is accumulated into a zero block, and a change of
  float format is the identity at the ideal values.
-/
import proofs.«176210_j52999896433085_2_alg».proof.Proof.Gen.KernelIdeal.Skeleton
import proofs.«176210_j52999896433085_2_alg».proof.Proof.LibRowOps

noncomputable section

open scoped BigOperators

namespace Cert.KernelIdeal.Payload

open Cert.KernelIdeal Cert.KernelIdeal.Gen Idealize.ShloMosaic Idealize.ShloMosaic.ValueIdx

/-- The body's product contracts the left block's columns with the right block's rows: the plain 2048×1024 by
    1024×1024 product. -/
theorem product_dims : dot_S2048x1024_S1024x1024_S2048x1024_1_0_0_1_n_n = DotDims.plain 2048 1024 1024 :=
  Cert.RowLib.dotDims_eq_plain _ rfl rfl rfl rfl rfl rfl

/-- The bias rows at (r, q): entry q of the one bias row. -/
theorem bias_rows_at (row : Vec Ideal S1x1024 .f32) (r : Fin 2048) (q : Fin 1024) :
    k0_pay1 (F := Ideal) row (ix2 r q) = row (ix2 (0 : Fin 1) q) := by
  unfold k0_pay1
  simp only [shapeCast_self]
  exact broadcastTo_1b_ab_apply _ _ r q

/-- The accumulated block at (r, q): the previous entry plus row r of the left block against column q of the right. -/
theorem accumulate_at (prev : Vec Ideal S2048x1024 .f32) (left : Vec Ideal S2048x1024 .bf16) (right : Vec Ideal S1024x1024 .bf16)
    (r : Fin 2048) (q : Fin 1024) :
    k0_pay2 (F := Ideal) prev left right (ix2 r q)
      = prev (ix2 r q) + ∑ j : Fin 1024, left (ix2 r j) * right (ix2 j q) := by
  unfold k0_pay2
  simp only [shapeCast_self]
  refine (addf_apply _ _ _).trans (congrArg (prev (ix2 r q) + ·) ?_)
  rw [product_dims]
  exact Cert.RowLib.matmul_plain_zero_ix2 none left right r q

end Cert.KernelIdeal.Payload

end
-- ==== Proof.KernelBlocks.lean ====
/-
  Where each window's block sits at a grid point, and what the three input blocks hold there.

  The grid is 8 × 4 × 4 (row block, column block, contraction step), point t = (16·a + 4·b + k).  At point t
    the left operand's block is rows 2048·a …, columns 1024·k … of the [16384, 4096] left array;
    the right operand's block is rows 1024·k …, columns 1024·b … of the [4096, 4096] right array;
    the bias block is columns 1024·b … of the [1, 4096] bias row;
    the output block is rows 2048·a …, columns 1024·b … of the [16384, 4096] result.
  An entry of a block is the array's entry at block index × block size + the coordinate inside the block.
-/
import proofs.«176210_j52999896433085_2_alg».proof.Proof.Gen.KernelIdeal.Frame.Runs
import Idealize.ShloMosaic.Lib.Pipeline.Value
import Idealize.ShloMosaic.Lib.ValueIdx

noncomputable section

open Idealize.ShloMosaic Idealize.ShloMosaic.TcCoe Idealize.SL.Sem

namespace Cert.KernelIdeal.Blocks

open Cert.KernelIdeal Cert.KernelIdeal.Gen Idealize.ShloMosaic.ValueIdx

variable (m : (ℓ : Loc nD τ sig) → Buf (Elt Ideal) ℓ)

/-- The windows' block indices at point t, decided once over the grid's 128 points. -/
theorem block_indices : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The left block at point t, entry (r, j): the left array at row 2048·(t/16) + r, column 1024·(t%4) + j. -/
theorem left_block_at (c : Dev nD) (t : Fin cfg0.N) (r : Fin 2048) (j : Fin 1024) (R : Fin 16384) (K : Fin 4096)
    (hR : R.val = t.val / 16 * 2048 + r.val) (hK : K.val = t.val % 4 * 1024 + j.val) :
    iblk m c 0 t (ix2 r j) = V m c main_v29 (ix2 R K) := by
  obtain ⟨e0, e1, -⟩ := block_indices t
  unfold iblk
  rw [View.read_apply]
  show V m c main_v29 (((cfg0.win 0).blk t).view.emb (ix2 r j)) = _
  refine congrArg (V m c main_v29) (funext fun a => Fin.ext ?_)
  match a with
  | ⟨0, _⟩ => show win0_0.index t (0 : Fin 2) * 2048 + 1 * r.val = R.val; rw [e0, hR]; omega
  | ⟨1, _⟩ => show win0_0.index t (1 : Fin 2) * 1024 + 1 * j.val = K.val; rw [e1, hK]; omega

/-- The right block at point t, entry (j, q): the right array at row 1024·(t%4) + j, column 1024·(t/4%4) + q. -/
theorem right_block_at (c : Dev nD) (t : Fin cfg0.N) (j : Fin 1024) (q : Fin 1024) (K : Fin 4096) (C : Fin 4096)
    (hK : K.val = t.val % 4 * 1024 + j.val) (hC : C.val = t.val / 4 % 4 * 1024 + q.val) :
    iblk m c 1 t (ix2 j q) = V m c main_v27 (ix2 K C) := by
  obtain ⟨-, -, e2, e3, -⟩ := block_indices t
  unfold iblk
  rw [View.read_apply]
  show V m c main_v27 (((cfg0.win 1).blk t).view.emb (ix2 j q)) = _
  refine congrArg (V m c main_v27) (funext fun a => Fin.ext ?_)
  match a with
  | ⟨0, _⟩ => show win0_1.index t (0 : Fin 2) * 1024 + 1 * j.val = K.val; rw [e2, hK]; omega
  | ⟨1, _⟩ => show win0_1.index t (1 : Fin 2) * 1024 + 1 * q.val = C.val; rw [e3, hC]; omega

/-- The bias block at point t, entry (0, q): the bias row at column 1024·(t/4%4) + q. -/
theorem bias_block_at (c : Dev nD) (t : Fin cfg0.N) (q : Fin 1024) (C : Fin 4096)
    (hC : C.val = t.val / 4 % 4 * 1024 + q.val) :
    iblk m c 2 t (ix2 (0 : Fin 1) q) = V m c main_v30 (ix2 (0 : Fin 1) C) := by
  obtain ⟨-, -, -, -, e4, e5, -⟩ := block_indices t
  unfold iblk
  rw [View.read_apply]
  show V m c main_v30 (((cfg0.win 2).blk t).view.emb (ix2 (0 : Fin 1) q)) = _
  refine congrArg (V m c main_v30) (funext fun a => Fin.ext ?_)
  match a with
  | ⟨0, _⟩ => show win0_2.index t (0 : Fin 2) * 1 + 1 * (0 : Fin 1).val = (0 : Fin 1).val; rw [e4]; rfl
  | ⟨1, _⟩ => show win0_2.index t (1 : Fin 2) * 1024 + 1 * q.val = C.val; rw [e5, hC]; omega

end Cert.KernelIdeal.Blocks

end
-- ==== Proof.LibReindex.lean ====
/-
  Re-indexing finite sums over consecutive indices. A sum over `n = a * b` indices is a double sum over `a`
  blocks of `b` indices each, the index written `i * b + j` or `b * i + j`; a sum over `n = a + b + c` indices
  is the sum of its three consecutive blocks. All over an arbitrary additive commutative monoid.
-/
import Mathlib.Algebra.BigOperators.Fin
import Mathlib.Logic.Equiv.Fin.Basic

namespace Cert.LibReindex

open scoped BigOperators

variable {M : Type*} [AddCommMonoid M]

/-- Position `j` of block `i`, among `a` blocks of `b`, lies below `a * b`. -/
theorem mul_add_lt {a b : ℕ} (i : Fin a) (j : Fin b) : i.val * b + j.val < a * b :=
  calc i.val * b + j.val < i.val * b + b := Nat.add_lt_add_left j.isLt _
    _ = (i.val + 1) * b := (Nat.succ_mul _ _).symm
    _ ≤ a * b := Nat.mul_le_mul_right _ i.isLt

/-- The same with the block size written first. -/
theorem mul_add_lt' {a b : ℕ} (i : Fin a) (j : Fin b) : b * i.val + j.val < a * b :=
  Nat.mul_comm b i.val ▸ mul_add_lt i j

/-- A sum over `n = a * b` indices is the double sum over `a` blocks of `b`: the index is `i * b + j`. -/
theorem sum_mul_add {n : ℕ} (a b : ℕ) (hn : n = a * b) (f : Fin n → M) :
    ∑ r : Fin n, f r = ∑ i : Fin a, ∑ j : Fin b, f ⟨i.val * b + j.val, hn ▸ mul_add_lt i j⟩ := by
  subst hn
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.add_comm, Nat.mul_comm]

/-- A sum over `n = a * b` indices is the double sum over `a` blocks of `b`: the index is `b * i + j`. -/
theorem sum_mul_add' {n : ℕ} (a b : ℕ) (hn : n = a * b) (f : Fin n → M) :
    ∑ r : Fin n, f r = ∑ i : Fin a, ∑ j : Fin b, f ⟨b * i.val + j.val, hn ▸ mul_add_lt' i j⟩ := by
  rw [sum_mul_add a b hn f]
  refine Finset.sum_congr rfl fun i _ => Finset.sum_congr rfl fun j _ => congrArg f (Fin.ext ?_)
  show i.val * b + j.val = b * i.val + j.val
  rw [Nat.mul_comm]

/-- A sum over `n = a + b + c` indices is the sum of its three consecutive blocks. -/
theorem sum_three_blocks {n : ℕ} (a b c : ℕ) (hn : n = a + b + c) (f : Fin n → M) :
    ∑ k : Fin n, f k
      = (∑ i : Fin a, f ⟨i.val, by omega⟩ + ∑ i : Fin b, f ⟨a + i.val, by omega⟩)
        + ∑ i : Fin c, f ⟨a + b + i.val, by omega⟩ := by
  subst hn
  rw [Fin.sum_univ_add, Fin.sum_univ_add]
  rfl

end Cert.LibReindex
-- ==== Proof.Spec.lean ====
/-
  The function both programs compute, and the one law that joins their two ways of summing.

  A linear layer with an additively quantized weight.  The dequantized weight array D has entries D(o, g, 0, e):
  output feature o, input group g of 512, offset e of 8 inside the group; input feature i = 8·g + e, so the weight
  matrix entry (o, i) is D(o, i / 8, 0, i % 8).  The layer's value at batch b, position s, output feature o is

        Σ_{i < 4096}  x(b, s, i) · D(o, i / 8, 0, i % 8)   +   bias(o).

  One program forms the sum whole and adds the bias last; the other starts from the bias and adds the four consecutive
  quarters of the sum (1024 features each) one after the other.  Addition of extended reals is commutative and
  associative, so the two agree, with no finiteness assumption.
-/
import Idealize.ShloMosaic.PureOps.Ideal
import Idealize.ShloMosaic.Lib.ValueIdx
import proofs.«176210_j52999896433085_2_alg».proof.Proof.LibReindex

noncomputable section

open scoped BigOperators

namespace Cert.Spec

open Idealize.ShloMosaic Idealize.ShloMosaic.ValueIdx

/-- The group of 8 an input feature lies in. -/
abbrev grp (i : Fin 4096) : Fin 512 := ⟨i.val / 8, by have := i.isLt; omega⟩
/-- Its offset inside the group. -/
abbrev off (i : Fin 4096) : Fin 8 := ⟨i.val % 8, Nat.mod_lt _ (by decide)⟩

/-- The layer at (b, s, o): the input row against the weight row of output feature o, plus the bias. -/
def linearAt (x : (⟨3, ![4, 4096, 4096]⟩ : Shape).Idx → EReal) (D : (⟨4, ![4096, 512, 1, 8]⟩ : Shape).Idx → EReal)
    (bias : (⟨1, ![4096]⟩ : Shape).Idx → EReal) (b : Fin 4) (s o : Fin 4096) : EReal :=
  (∑ i : Fin 4096, x (ix3 b s i) * D (ix4 o (grp i) (0 : Fin 1) (off i))) + bias (ix1 o)

/-- The layer as an array. -/
def linear (x : (⟨3, ![4, 4096, 4096]⟩ : Shape).Idx → EReal) (D : (⟨4, ![4096, 512, 1, 8]⟩ : Shape).Idx → EReal)
    (bias : (⟨1, ![4096]⟩ : Shape).Idx → EReal) : (⟨3, ![4, 4096, 4096]⟩ : Shape).Idx → EReal :=
  fun i => linearAt x D bias ⟨(i 0).val, (i 0).isLt⟩ ⟨(i 1).val, (i 1).isLt⟩ ⟨(i 2).val, (i 2).isLt⟩

theorem linear_ix3 (x : (⟨3, ![4, 4096, 4096]⟩ : Shape).Idx → EReal) (D : (⟨4, ![4096, 512, 1, 8]⟩ : Shape).Idx → EReal)
    (bias : (⟨1, ![4096]⟩ : Shape).Idx → EReal) (b : Fin 4) (s o : Fin 4096) :
    linear x D bias (ix3 b s o) = linearAt x D bias b s o := rfl

/-! ## The four quarters of a sum over 4096 positions -/

variable {M : Type*} [AddCommMonoid M]

/-- Quarter k of a family over 4096 positions: the sum over positions 1024·k … 1024·k + 1023. -/
def quarter (f : Fin 4096 → M) (k : Fin 4) : M := ∑ j : Fin 1024, f ⟨k.val * 1024 + j.val, by have := k.isLt; have := j.isLt; omega⟩

/-- Starting from b and adding the four quarters in order gives the whole sum plus b. -/
theorem quarters_from (b : M) (f : Fin 4096 → M) :
    (((b + quarter f 0) + quarter f 1) + quarter f 2) + quarter f 3 = (∑ i : Fin 4096, f i) + b := by
  rw [Cert.LibReindex.sum_mul_add 4 1024 rfl f, Fin.sum_univ_four]
  unfold quarter
  abel

end Cert.Spec

end
-- ==== Proof.KernelRunning.lean ====
/-
  What the output block's staging buffer holds when it is written back.

  Fix a row R of the left array and a column C of the right array and let p(i) = left(R, i) · right(i, C) for the 4096
  contracted positions i.  The four grid points of one output block are consecutive, the contraction step k = 0, 1, 2, 3
  being the point's number modulo 4.  At step 0 the entry of the buffer becomes  bias(C) + quarter 0 of p;  at step k > 0
  it becomes the previous entry + quarter k of p.  So at step 3 — the only point whose buffer is written back — the entry
  is  (((bias(C) + q₀) + q₁) + q₂) + q₃ = Σ_i p(i) + bias(C).
-/
import proofs.«176210_j52999896433085_2_alg».proof.Proof.Gen.KernelIdeal.Frame
import proofs.«176210_j52999896433085_2_alg».proof.Proof.KernelPieces
import proofs.«176210_j52999896433085_2_alg».proof.Proof.KernelPayload
import proofs.«176210_j52999896433085_2_alg».proof.Proof.KernelBlocks
import proofs.«176210_j52999896433085_2_alg».proof.Proof.Spec

noncomputable section

open scoped BigOperators
open Idealize.ShloMosaic Idealize.ShloMosaic.TcCoe Idealize.SL.Sem

namespace Cert.KernelIdeal.Running

open Cert.KernelIdeal Cert.KernelIdeal.Gen Idealize.ShloMosaic.ValueIdx Cert.Spec

variable (m : (ℓ : Loc nD τ sig) → Buf (Elt Ideal) ℓ)

/-- The left and right operands as the region finds them. -/
abbrev leftArr (c : Dev nD) : Vec Ideal S16384x4096 .bf16 := V m c main_v29
abbrev rightArr (c : Dev nD) : Vec Ideal S4096x4096 .bf16 := V m c main_v27

/-- The products along the contraction of row R of the left array with column C of the right array. -/
def products (c : Dev nD) (R : Fin 16384) (C : Fin 4096) : Fin 4096 → EReal :=
  fun i => leftArr m c (ix2 R i) * rightArr m c (ix2 i C)

/-- The bias entry of column C, as the region finds the bias row. -/
def biasEntry (c : Dev nD) (C : Fin 4096) : EReal := V m c main_v30 (ix2 (0 : Fin 1) C)

/-- At point n the product of the two input blocks, at (r, q), is quarter n % 4 of the products of row R with column C. -/
theorem block_product (c : Dev nD) (t : Fin cfg0.N) (left : Vec Ideal S2048x1024 .bf16) (right : Vec Ideal S1024x1024 .bf16)
    (hl : left = iblk m c 0 t) (hr : right = iblk m c 1 t)
    (r : Fin 2048) (q : Fin 1024) (R : Fin 16384) (C : Fin 4096) (k : Fin 4)
    (hR : R.val = t.val / 16 * 2048 + r.val) (hC : C.val = t.val / 4 % 4 * 1024 + q.val) (hk : k.val = t.val % 4) :
    ∑ j : Fin 1024, left (ix2 r j) * right (ix2 j q) = quarter (products m c R C) k := by
  subst hl hr
  unfold quarter products
  refine Finset.sum_congr rfl fun j _ => ?_
  rw [Blocks.left_block_at m c t r j R ⟨k.val * 1024 + j.val, by have := k.isLt; have := j.isLt; omega⟩ hR
      (by show k.val * 1024 + j.val = t.val % 4 * 1024 + j.val; rw [hk]),
    Blocks.right_block_at m c t j q ⟨k.val * 1024 + j.val, by have := k.isLt; have := j.isLt; omega⟩ C
      (by show k.val * 1024 + j.val = t.val % 4 * 1024 + j.val; rw [hk]) hC]

/-- A later step: the entry grows by the step's quarter. -/
theorem later_point (c : Dev nD) (n : ℕ) (hn : n < cfg0.N) (h : ¬n % 4 = 0) (r : Fin 2048) (q : Fin 1024)
    (R : Fin 16384) (C : Fin 4096) (k : Fin 4)
    (hR : R.val = n / 16 * 2048 + r.val) (hC : C.val = n / 4 % 4 * 1024 + q.val) (hk : k.val = n % 4) :
    outsAt0 m c n hn (ix2 r q)
      = outsAt0 m c (n - 1) (Nat.lt_of_le_of_lt (Nat.sub_le _ _) hn) (ix2 r q) + quarter (products m c R C) k := by
  refine (congrFun (outsAt0_B m c ⟨n, hn⟩ h) (ix2 r q)).trans ?_
  rw [Pieces.later_step]
  refine (Payload.accumulate_at _ (iblk m c 0 ⟨n, hn⟩) (iblk m c 1 ⟨n, hn⟩) r q).trans ?_
  rw [block_product m c ⟨n, hn⟩ (iblk m c 0 ⟨n, hn⟩) (iblk m c 1 ⟨n, hn⟩) rfl rfl r q R C k hR hC hk]

/-- A first step: the entry is the bias entry plus quarter 0. -/
theorem first_point (c : Dev nD) (n : ℕ) (hn : n < cfg0.N) (h : n % 4 = 0) (r : Fin 2048) (q : Fin 1024)
    (R : Fin 16384) (C : Fin 4096)
    (hR : R.val = n / 16 * 2048 + r.val) (hC : C.val = n / 4 % 4 * 1024 + q.val) :
    outsAt0 m c n hn (ix2 r q) = biasEntry m c C + quarter (products m c R C) 0 := by
  refine (congrFun (outsAt0_A m c ⟨n, hn⟩ h) (ix2 r q)).trans ?_
  rw [Pieces.first_step]
  refine (Payload.accumulate_at _ (iblk m c 0 ⟨n, hn⟩) (iblk m c 1 ⟨n, hn⟩) r q).trans ?_
  rw [block_product m c ⟨n, hn⟩ (iblk m c 0 ⟨n, hn⟩) (iblk m c 1 ⟨n, hn⟩) rfl rfl r q R C 0 hR hC (by show (0 : ℕ) = n % 4; omega),
    Payload.bias_rows_at (iblk m c 2 ⟨n, hn⟩) r q, Blocks.bias_block_at m c ⟨n, hn⟩ q C hC]
  rfl

/-- At a point where the block is written back (step 3) the entry is the whole contraction plus the bias entry. -/
theorem flush_point (c : Dev nD) (n : ℕ) (hn : n < cfg0.N) (h3 : n % 4 = 3) (r : Fin 2048) (q : Fin 1024)
    (R : Fin 16384) (C : Fin 4096)
    (hR : R.val = n / 16 * 2048 + r.val) (hC : C.val = n / 4 % 4 * 1024 + q.val) :
    outsAt0 m c n hn (ix2 r q) = (∑ i : Fin 4096, products m c R C i) + biasEntry m c C := by
  refine Eq.trans ?_ (quarters_from (biasEntry m c C) (products m c R C))
  rw [later_point m c n hn (by omega) r q R C 3 hR hC (by show (3 : ℕ) = n % 4; omega),
    later_point m c (n - 1) _ (by omega) r q R C 2 (by omega) (by omega) (by show (2 : ℕ) = (n - 1) % 4; omega),
    later_point m c (n - 1 - 1) _ (by omega) r q R C 1 (by omega) (by omega) (by show (1 : ℕ) = (n - 1 - 1) % 4; omega),
    first_point m c (n - 1 - 1 - 1) _ (by omega) r q R C (by omega) (by omega)]

end Cert.KernelIdeal.Running

end
-- ==== Proof.LibRowCast.lean ====
/-
  General reads at an index of a reshape that splits the row axis of an [a·b, c] array into [a, b, c], or merges
  it back: row p·b + q of the flat array is row q of slab p.
-/
import Idealize.ShloMosaic.Lib.ValueIdx
import Idealize.ShloMosaic.Lib.ValueLayout
import Idealize.ShloMosaic.Lib.Pipeline.Value

noncomputable section

namespace Cert.RowCast

open Idealize.ShloMosaic Idealize.ShloMosaic.ValueIdx

variable {α : Type}

/-- Row q of slab p, among a slabs of b rows, lies below a·b. -/
theorem row_lt {n a b : ℕ} (hn : n = a * b) (p : Fin a) (q : Fin b) : p.val * b + q.val < n := by
  subst hn
  calc p.val * b + q.val < p.val * b + b := Nat.add_lt_add_left q.isLt _
    _ = (p.val + 1) * b := (Nat.succ_mul _ _).symm
    _ ≤ a * b := Nat.mul_le_mul_right _ p.isLt

/-- An [n, c] array with n = a·b cast to [a, b, c] reads, at (p, q, r), the operand at (p·b + q, r). -/
theorem shapeCast_split_apply {n a b c : ℕ} (hn : n = a * b) (v : (⟨2, ![n, c]⟩ : Shape).Idx → α)
    (h : (⟨2, ![n, c]⟩ : Shape).ShapeCasts ⟨3, ![a, b, c]⟩) (p : Fin a) (q : Fin b) (r : Fin c) :
    shapeCast ⟨3, ![a, b, c]⟩ v h (ix3 p q r) = v (ix2 ⟨p.val * b + q.val, row_lt hn p q⟩ r) :=
  shapeCast_apply v h _ _ (by
    rw [Shape.rowMajor_val_three, Shape.rowMajor_val_two]
    rfl)

/-- An [a, b, c] array cast to [n, c] with n = a·b reads, at (p·b + q, r), the operand at (p, q, r). -/
theorem shapeCast_merge_apply {n a b c : ℕ} (hn : n = a * b) (v : (⟨3, ![a, b, c]⟩ : Shape).Idx → α)
    (h : (⟨3, ![a, b, c]⟩ : Shape).ShapeCasts ⟨2, ![n, c]⟩) (p : Fin a) (q : Fin b) (r : Fin c) :
    shapeCast ⟨2, ![n, c]⟩ v h (ix2 ⟨p.val * b + q.val, row_lt hn p q⟩ r) = v (ix3 p q r) :=
  shapeCast_apply v h _ _ (by
    rw [Shape.rowMajor_val_three, Shape.rowMajor_val_two]
    rfl)

end Cert.RowCast

end
-- ==== Proof.KernelOperands.lean ====
/-
  The three arrays the matrix-product region is handed, read at one entry in terms of the program's arguments.

  Before the region the program (i) dequantizes the weight — two codebook look-ups added and scaled, the array D with
  entries D(o, g, 0, e) — transposes it to (g, e, o, 0), flattens that to the [4096, 4096] right operand and rounds it
  to a shorter float format; (ii) flattens the [4, 4096, 4096] input to [16384, 4096] and rounds it likewise;
  (iii) writes the [4096] bias as one row [1, 4096].  At the ideal values a change of float format is the identity, so

      right(i, o) = D(o, i / 8, 0, i % 8),      left(4096·b + s, i) = x(b, s, i),      row(0, o) = bias(o).

  D is named by the same operations, in the same order, that the reference program applies to the same three
  arguments; nothing here looks inside it.
-/
import proofs.«176210_j52999896433085_2_alg».proof.Proof.Gen.KernelIdeal.Frame.Runs
import proofs.«176210_j52999896433085_2_alg».proof.Proof.Gen.ReferenceIdeal.Read
import proofs.«176210_j52999896433085_2_alg».proof.Proof.LibRowCast
import proofs.«176210_j52999896433085_2_alg».proof.Proof.Spec
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem

namespace Cert.KernelIdeal.Operands

open Cert.KernelIdeal Cert.KernelIdeal.Gen Idealize.ShloMosaic.ValueIdx Cert.Spec

variable (m : (ℓ : Loc nD τ sig) → Buf (Elt Ideal) ℓ)

/-- The dequantized weight array D of the program's arguments (codes, codebooks, scales). -/
abbrev dequantized (c : Dev nD) : (⟨4, ![4096, 512, 1, 8]⟩ : Shape).Idx → EReal :=
  Cert.ReferenceIdeal.Read.val_main_v24 (F := Ideal) (m ((c : Thread nD τ).loc main_arg1)) (m ((c : Thread nD τ).loc main_arg2))
    (m ((c : Thread nD τ).loc main_arg3))

/-- The left operand as the region finds it: the input flattened, its format changed. -/
theorem left_array (c : Dev nD) :
    (V m c main_v29 : FVec Ideal S16384x4096 .bf16)
      = truncf (F := Ideal) .bf16 (shapeCast S16384x4096 (m ((c : Thread nD τ).loc main_arg0) : FVec Ideal S4x4096x4096 .f32)
          shapeCasts_S4x4096x4096_S16384x4096) bitsLt_bf16_f32 := by
  show StableHlo.after hostOps0 (fun b => m (c, b)) (Proc.devRef .tc main_v29) = _
  after_results_simp <;> rfl

/-- The bias row as the region finds it. -/
theorem bias_array (c : Dev nD) :
    (V m c main_v30 : FVec Ideal S1x4096 .f32)
      = shapeCast S1x4096 (m ((c : Thread nD τ).loc main_arg4) : FVec Ideal S4096 .f32) shapeCasts_S4096_S1x4096 := by
  show StableHlo.after hostOps0 (fun b => m (c, b)) (Proc.devRef .tc main_v30) = _
  after_results_simp <;> rfl

/-- The right operand as the region finds it: D transposed, flattened, its format changed. -/
theorem right_array (c : Dev nD) :
    (V m c main_v27 : FVec Ideal S4096x4096 .bf16)
      = truncf (F := Ideal) .bf16 (shapeCast S4096x4096 (transpose S512x8x4096x1 [1, 3, 0, 2] (dequantized m c : FVec Ideal S4096x512x1x8 .f32)
          transposes_S4096x512x1x8_S512x8x4096x1_1_3_0_2) shapeCasts_S512x8x4096x1_S4096x4096) bitsLt_bf16_f32 := by
  show StableHlo.after hostOps0 (fun b => m (c, b)) (Proc.devRef .tc main_v27) = _
  after_results_simp <;> rfl

/-- left(4096·b + s, i) = x(b, s, i). -/
theorem left_at (c : Dev nD) (b : Fin 4) (s : Fin 4096) (i : Fin 4096) :
    V m c main_v29 (ix2 ⟨b.val * 4096 + s.val, Cert.RowCast.row_lt (n := 16384) rfl b s⟩ i)
      = m ((c : Thread nD τ).loc main_arg0) (ix3 b s i) := by
  rw [left_array]
  refine (truncf_apply (ψ := .bf16) _ bitsLt_bf16_f32 _).trans ?_
  exact Cert.RowCast.shapeCast_merge_apply (n := 16384) rfl _ _ b s i

/-- row(0, o) = bias(o). -/
theorem bias_at (c : Dev nD) (o : Fin 4096) :
    V m c main_v30 (ix2 (0 : Fin 1) o) = m ((c : Thread nD τ).loc main_arg4) (ix1 o) := by
  rw [bias_array]
  exact shapeCast_a_1a_apply _ _ (0 : Fin 1) o

/-- right(i, o) = D(o, i / 8, 0, i % 8). -/
theorem right_at (c : Dev nD) (i : Fin 4096) (o : Fin 4096) :
    V m c main_v27 (ix2 i o) = dequantized m c (ix4 o (grp i) (0 : Fin 1) (off i)) := by
  rw [right_array]
  refine (truncf_apply (ψ := .bf16) _ bitsLt_bf16_f32 _).trans ?_
  refine (shapeCast_apply _ shapeCasts_S512x8x4096x1_S4096x4096 (ix2 i o) (ix4 (grp i) (off i) o (0 : Fin 1)) ?_).trans ?_
  · rw [Shape.rowMajor_val_four, Shape.rowMajor_val_two]
    show ((i.val / 8 * 8 + i.val % 8) * 4096 + o.val) * 1 + 0 = i.val * 4096 + o.val
    omega
  · exact transpose_apply [1, 3, 0, 2] _ transposes_S4096x512x1x8_S512x8x4096x1_1_3_0_2 _ (ix4 o (grp i) (0 : Fin 1) (off i))
      (fun b => match b with
        | ⟨0, _⟩ => rfl
        | ⟨1, _⟩ => rfl
        | ⟨2, _⟩ => rfl
        | ⟨3, _⟩ => rfl)

end Cert.KernelIdeal.Operands

end
-- ==== Proof.KernelResult.lean ====
/-
  The array the region leaves, the program's result, and that result as the layer of Spec.lean.

  The 32 output blocks tile the [16384, 4096] result array, each written back once, after the last step of its
  contraction; what is written at entry (R, C) is  Σ_i left(R, i) · right(i, C) + row(0, C).  The program's result is
  that array with its row axis split as (b, s), R = 4096·b + s.  Substituting what left, right and row are of the
  arguments gives the layer  Σ_i x(b, s, i) · D(o, i / 8, 0, i % 8) + bias(o).
-/
import proofs.«176210_j52999896433085_2_alg».proof.Proof.Gen.KernelIdeal.Frame
import proofs.«176210_j52999896433085_2_alg».proof.Proof.KernelRunning
import proofs.«176210_j52999896433085_2_alg».proof.Proof.KernelOperands
import proofs.«176210_j52999896433085_2_alg».proof.Proof.LibRowCast
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Cert.Spec

variable (m : (ℓ : Loc nD τ sig) → Buf (Elt Ideal) ℓ) (ρ : Dev nD → PrngReg)

/-- The flat result: at (R, C) the contraction of row R of the left array with column C of the right, plus the bias entry. -/
def flat (c : Dev nD) : Vec Ideal S16384x4096 .f32 := fun i =>
  (∑ k : Fin 4096, Running.products m c ⟨(i 0).val, (i 0).isLt⟩ ⟨(i 1).val, (i 1).isLt⟩ k)
    + Running.biasEntry m c ⟨(i 1).val, (i 1).isLt⟩

/-- The entry of the result array that entry y of the output block at point t is. -/
abbrev placed (t : Fin cfg0.N) (y : S2048x1024.Idx) : S16384x4096.Idx := fun a => match a with
  | ⟨0, _⟩ => ⟨t.val / 16 * 2048 + (y 0).val, by
      have hN : t.val < 128 := lt_of_lt_of_eq t.isLt (show cfg0.N = 128 from N_0)
      have hy : (y 0).val < 2048 := (y 0).isLt
      show t.val / 16 * 2048 + (y 0).val < 16384; omega⟩
  | ⟨1, _⟩ => ⟨t.val / 4 % 4 * 1024 + (y 1).val, by
      have hy : (y 1).val < 1024 := (y 1).isLt
      show t.val / 4 % 4 * 1024 + (y 1).val < 4096; omega⟩

/-- At a point that writes back, the staging buffer's entry y is the flat result at its place in the array. -/
theorem flush_entry (c : Dev nD) (t : Fin cfg0.N) (h3 : t.val % 4 = 3) (y : S2048x1024.Idx) :
    outsAt0 m c t.val t.isLt y = flat m c (placed t y) := by
  obtain ⟨r, q, rfl⟩ : ∃ (r : Fin 2048) (q : Fin 1024), y = ix2 r q := ⟨y 0, y 1, eq_ix2 y⟩
  exact Running.flush_point m c t.val t.isLt h3 r q _ _ rfl rfl

/-- What a writing-back point writes is its block of the flat result. -/
theorem flushed_eq (c : Dev nD) (t : Fin cfg0.N) (hf : (cfg0.win 3).flush t = true) :
    (dats m 0 c).flushed 3 t = ((cfg0.win 3).blk t).view.read (Elt Ideal) (flat m c) := by
  have h3 : t.val % 4 = 3 := (flush0_3 t).mp hf
  obtain ⟨-, -, -, -, -, -, e6, e7⟩ := Blocks.block_indices t
  show (cfg0.win 3).cut (grid0.coords t) ((dats m 0 c).after 3 t) = _
  rw [after0_3]
  funext y
  refine (flush_entry m c t h3 y).trans ?_
  show flat m c (placed t y) = flat m c (((cfg0.win 3).blk t).view.emb y)
  refine congrArg (flat m c) (funext fun a => Fin.ext ?_)
  match a with
  | ⟨0, _⟩ => show t.val / 16 * 2048 + (y 0).val = win0_3.index t (0 : Fin 2) * 2048 + 1 * (y 0).val; rw [e6]; omega
  | ⟨1, _⟩ => show t.val / 4 % 4 * 1024 + (y 1).val = win0_3.index t (1 : Fin 2) * 1024 + 1 * (y 1).val; rw [e7]; omega

/-- An entry of the array is in point t's block iff each coordinate is in the block's range. -/
theorem mem_block (t : Fin cfg0.N) (i : S16384x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v31).slice (win0_3.rect t)).set ↔ _
  rw [View.set_slice_whole, Rect.mem_set_unit]
  exact Iff.rfl

/-- Every entry of the array is in the block of a point that writes back: row block i₀ / 2048, column block i₁ / 1024,
    the last contraction step. -/
theorem covered (i : S16384x4096.Idx) :
    ∃ t : Fin cfg0.N, (cfg0.win 3).flush t = true ∧ i ∈ ((cfg0.win 3).blk t).view.set := by
  have h0 : (i 0).val < 16384 := (i 0).isLt
  have h1 : (i 1).val < 4096 := (i 1).isLt
  have hlt : 16 * ((i 0).val / 2048) + 4 * ((i 1).val / 1024) + 3 < cfg0.N := by
    rw [show cfg0.N = 128 from N_0]; omega
  refine ⟨⟨16 * ((i 0).val / 2048) + 4 * ((i 1).val / 1024) + 3, hlt⟩, (flush0_3 _).mpr (by
    show (16 * ((i 0).val / 2048) + 4 * ((i 1).val / 1024) + 3) % 4 = 3; omega), ?_⟩
  obtain ⟨-, -, -, -, -, -, e6, e7⟩ := Blocks.block_indices ⟨16 * ((i 0).val / 2048) + 4 * ((i 1).val / 1024) + 3, hlt⟩
  rw [mem_block]
  intro a
  match a with
  | ⟨0, _⟩ =>
    show win0_3.index _ (0 : Fin 2) * 2048 ≤ (i 0).val ∧ (i 0).val < win0_3.index _ (0 : Fin 2) * 2048 + 2048
    rw [e6]
    show (16 * ((i 0).val / 2048) + 4 * ((i 1).val / 1024) + 3) / 16 * 2048 ≤ (i 0).val
      ∧ (i 0).val < (16 * ((i 0).val / 2048) + 4 * ((i 1).val / 1024) + 3) / 16 * 2048 + 2048
    omega
  | ⟨1, _⟩ =>
    show win0_3.index _ (1 : Fin 2) * 1024 ≤ (i 1).val ∧ (i 1).val < win0_3.index _ (1 : Fin 2) * 1024 + 1024
    rw [e7]
    show (16 * ((i 0).val / 2048) + 4 * ((i 1).val / 1024) + 3) / 4 % 4 * 1024 ≤ (i 1).val
      ∧ (i 1).val < (16 * ((i 0).val / 2048) + 4 * ((i 1).val / 1024) + 3) / 4 % 4 * 1024 + 1024
    omega

/-- So the result array ends holding the flat result. -/
theorem final (c : Dev nD) : (dats m 0 c).arrAt 3 cfg0.N = flat m c :=
  (dats m 0 c).arrAt_eq_of_cover 3 (flat m c) (flushed_eq m c) covered

/-- The program's result: the region's array with its row axis split into (batch, position). -/
theorem result_value (c : Dev nD) :
    (Pipeline.afterTail₀ cfgs (dats m) 0 (V0 m) [hostOps1] c main_v32 : FVec Ideal S4x4096x4096 .f32)
      = shapeCast S4x4096x4096 (flat m c) shapeCasts_S16384x4096_S4x4096x4096 := by
  unfold Pipeline.afterTail₀
  show StableHlo.after hostOps1 _ (Proc.devRef .tc main_v32) = _
  after_results
  rw [(Pipeline.withArrays_arr spec0 launch0.win.arr_inj c _ _ 3).trans (final m c)]
  rfl

/-- The flat result with its rows split is the layer of the arguments. -/
theorem result_is_linear (c : Dev nD) :
    shapeCast S4x4096x4096 (flat m c) shapeCasts_S16384x4096_S4x4096x4096
      = linear (m ((c : Thread nD τ).loc main_arg0)) (Operands.dequantized m c) (m ((c : Thread nD τ).loc main_arg4)) := by
  funext i
  obtain ⟨b, s, o, rfl⟩ : ∃ (b : Fin 4) (s o : Fin 4096), i = ix3 b s o := ⟨i 0, i 1, i 2, eq_ix3 i⟩
  rw [linear_ix3]
  refine (Cert.RowCast.shapeCast_split_apply (n := 16384) rfl (flat m c) shapeCasts_S16384x4096_S4x4096x4096 b s o).trans ?_
  unfold linearAt
  show (∑ k : Fin 4096, Running.products m c ⟨b.val * 4096 + s.val, _⟩ o k) + Running.biasEntry m c o = _
  unfold Running.products Running.biasEntry
  rw [Operands.bias_at m c o]
  refine congrArg (· + m ((c : Thread nD τ).loc main_arg4) (ix1 o)) (Finset.sum_congr rfl fun k _ => ?_)
  rw [← Operands.left_at m c b s k, ← Operands.right_at m c k o]

/-- The kernel program's run, read: its result is the layer of its arguments, which end unchanged. -/
theorem run : θ_run defs (onTc (τ := τ) (main (F := Ideal))) ⟨m, fun _ => 0, ρ⟩ fun r => ∀ c : Dev nD,
      r.2.mem ((c.tc : Thread nD τ).loc main_v32)
        = linear (m ((c : Thread nD τ).loc main_arg0)) (Operands.dequantized m c) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(((h c).2 main_v32 (Pipeline.mem_restRefs_of main_v32 (by decide) (by decide))).trans (result_value m c)).trans (result_is_linear m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.RefSide.lean ====
/-
  The reference program's result is the layer of Spec.lean, entry by entry.

  The reference dequantizes the weight to the array D(o, g, 0, e), swaps its two middle axes, flattens it to the
  [4096, 4096] matrix  weight(o, i) = D(o, i / 8, 0, i % 8),  contracts the input's last axis with the matrix's second
  axis, and adds the bias repeated over batch and position.  Read at (b, s, o) this is
  Σ_i x(b, s, i) · D(o, i / 8, 0, i % 8) + bias(o).
-/
import proofs.«176210_j52999896433085_2_alg».proof.Proof.Gen.ReferenceIdeal.Read
import proofs.«176210_j52999896433085_2_alg».proof.Proof.Spec

noncomputable section

open scoped BigOperators

namespace Cert.ReferenceIdeal.RefValue

open Cert.ReferenceIdeal Cert.ReferenceIdeal.Read Idealize.ShloMosaic Idealize.ShloMosaic.ValueIdx Cert.Spec

/-- The reference's last stage is the layer over its own dequantized array. -/
theorem reference_is_linear (x0 : (⟨S4x4096x4096, .f32⟩ : BufTy).Contents (Elt Ideal)) (x1 : (⟨S4096x512x2, .i32⟩ : BufTy).Contents (Elt Ideal))
    (x2 : (⟨S2x256x1x8, .f32⟩ : BufTy).Contents (Elt Ideal)) (x3 : (⟨S4096x1x1x1, .f32⟩ : BufTy).Contents (Elt Ideal))
    (x4 : (⟨S4096, .f32⟩ : BufTy).Contents (Elt Ideal)) :
    val_main_v30 (F := Ideal) x0 x1 x2 x3 x4 = linear x0 (val_main_v24 (F := Ideal) x1 x2 x3) x4 := by
  funext i
  obtain ⟨b, s, o, rfl⟩ : ∃ (b : Fin 4) (s o : Fin 4096), i = ix3 b s o := ⟨i 0, i 1, i 2, eq_ix3 i⟩
  rw [linear_ix3]
  unfold linearAt
  rw [val_main_v30_apply, val_main_v27_apply, val_main_v29_apply, val_main_v28_apply]
  have hb : idx_main_v28 (idx_main_v29 (ix3 b s o)) = ix1 o := funext fun a => Fin.ext (by
    match a with
    | ⟨0, _⟩ => rfl)
  rw [hb]
  refine congrArg (· + x4 (ix1 o)) (Finset.sum_congr rfl fun k _ => ?_)
  rw [val_main_v26_apply, val_main_v25_apply]
  have hl : lidx_main_v27 (ix3 b s o) k = ix3 b s k := funext fun a => Fin.ext (by
    match a with
    | ⟨0, _⟩ => rfl
    | ⟨1, _⟩ => rfl
    | ⟨2, _⟩ => rfl)
  have ho : o.val < 4096 := o.isLt
  have hk : k.val < 4096 := k.isLt
  have hr : idx_main_v25 (idx_main_v26 (ridx_main_v27 (ix3 b s o) k)) = ix4 o (grp k) (0 : Fin 1) (off k) :=
    funext fun a => Fin.ext (by
      match a with
      | ⟨0, _⟩ => show (o.val * 4096 + k.val) / 4096 = o.val; omega
      | ⟨1, _⟩ => show (o.val * 4096 + k.val) / 8 % 512 = k.val / 8; omega
      | ⟨2, _⟩ => rfl
      | ⟨3, _⟩ => show (o.val * 4096 + k.val) % 8 = k.val % 8; omega)
  rw [hl, hr]

end Cert.ReferenceIdeal.RefValue

end
-- ==== Proof.lean ====
/-
  The proof of `Cert.Claim`: a linear layer whose weight is additively quantized, computed two ways.

  Both programs dequantize the weight in the same way — two codebook look-ups added and scaled, the array D with
  entries D(o, g, 0, e) for output feature o, input group g and offset e, input feature i = 8·g + e.  The reference forms
  the [4096, 4096] matrix weight(o, i) = D(o, i / 8, 0, i % 8), contracts the input with it and adds the bias.  The kernel
  program forms the transposed matrix, flattens the input's batch and position axes into 16384 rows, and runs one
  matrix-product region over an 8 × 4 × 4 grid: for each [2048, 1024] block of the result it starts from the bias row
  repeated down the rows and adds, at four consecutive steps, the products of the four [2048, 1024] and [1024, 1024]
  blocks along the contraction; the block is written back after the fourth step, and the result's rows are split back
  into batch and position.

  At the ideal values (extended reals, exact operations, a change of float format the identity) both results are, at
  (b, s, o),   Σ_{i < 4096} x(b, s, i) · D(o, i / 8, 0, i % 8) + bias(o):  the kernel's entry is
  (((bias(o) + q₀) + q₁) + q₂) + q₃ with q_k the k-th quarter of that sum, and addition of extended reals is commutative
  and associative.  No finiteness of the inputs is used.

  The modules: Spec (the layer and the quarters law), RefSide (the reference's stages chained to the layer),
  KernelPieces and KernelPayload (what one step of the body leaves, as a value and at an entry), KernelBlocks (where the
  windows' blocks sit), KernelOperands (the region's three arrays in terms of the arguments), KernelRunning (the four
  steps of one block), KernelResult (the blocks tile the result; the program's result is the layer).  The three frames
  are the generated ones; the idealization rewrote nothing, so the preservation claim is trivial.
-/
import proofs.«176210_j52999896433085_2_alg».proof.Defs
import proofs.«176210_j52999896433085_2_alg».proof.Proof.Gen.Kernel
import proofs.«176210_j52999896433085_2_alg».proof.Proof.Gen.Kernel.Frame
import proofs.«176210_j52999896433085_2_alg».proof.Proof.Gen.KernelIdeal
import proofs.«176210_j52999896433085_2_alg».proof.Proof.Gen.KernelIdeal.Frame
import proofs.«176210_j52999896433085_2_alg».proof.Proof.Gen.ReferenceIdeal
import proofs.«176210_j52999896433085_2_alg».proof.Proof.Gen.ReferenceIdeal.Run
import proofs.«176210_j52999896433085_2_alg».proof.Proof.Gen.ReferenceIdeal.Read
import proofs.«176210_j52999896433085_2_alg».proof.Proof.Gen.Pre_finite_inputs
import proofs.«176210_j52999896433085_2_alg».proof.Proof.KernelResult
import proofs.«176210_j52999896433085_2_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no region: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the layer of their arguments; the arguments agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.reference_is_linear,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
